-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S64x4096 : Shape := ⟨2, ![64, 4096]⟩
abbrev S4096x64 : Shape := ⟨2, ![4096, 64]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S4096x64 : S_.BroadcastsInDim S4096x64 (![] : Fin 0 → Fin S4096x64.rank)
  reducesTo_S4096x64_S_d0_1 : S4096x64.ReducesTo [0, 1] S_

variable [Facts]

def fn_part1 {F : FTy → Type} [FloatOps F] (main_v13 : IVec S_ 1) (main_v16 : IVec S16384x4096 1) : IVec S_ 1 :=
  let main_c_5 : IVec S_ 1 := constantI S_ 1 1#1
  let main_v17 : IVec S_ 1 := (fun x v => Host.reduce IntOp.andi x v reducesTo_S16384x4096_S_d0_1 h_S_) main_v16 main_c_5
  let main_v18 : IVec S_ 1 := andi main_v13 main_v17
  main_v18

def fn {F : FTy → Type} [FloatOps F] (main_arg0 : FVec F S16384x4096 .f32) (main_arg1 : FVec F S64x4096 .f32) (main_arg2 : FVec F S4096x64 .f32) (main_arg3 : FVec F S16384x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S16384x4096 .f32 := Host.absf main_arg3
  let main_cst_4 : FVec F S_ .f32 := constant S_ .f32 0x7F800000#32
  let main_v15 : FVec F S16384x4096 .f32 := broadcastInDim S16384x4096 ![] bcast_S_S16384x4096 main_cst_4
  let main_v16 : IVec S16384x4096 1 := cmpf .olt main_v14 main_v15
  fn_part1 (F := F) main_v13 main_v16
-- ==== Kernel.lean ====
abbrev S16384x4096 : Shape := ⟨2, ![16384, 4096]⟩
abbrev S64x4096 : Shape := ⟨2, ![64, 4096]⟩
abbrev S4096x64 : Shape := ⟨2, ![4096, 64]⟩
abbrev S_ : Shape := ⟨0, ![]⟩
abbrev S256x4096 : Shape := ⟨2, ![256, 4096]⟩
abbrev S256x64 : Shape := ⟨2, ![256, 64]⟩

abbrev nBuf : Space → Nat
  | .hbm => 12
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S64x4096, .f32⟩
  | .hbm, ⟨2, _⟩ => ⟨S4096x64, .f32⟩
  | .hbm, ⟨3, _⟩ => ⟨S16384x4096, .f32⟩
  | .hbm, ⟨4, _⟩ => ⟨S4096x64, .f32⟩
  | .hbm, ⟨5, _⟩ => ⟨S4096x64, .bf16⟩
  | .hbm, ⟨6, _⟩ => ⟨S64x4096, .f32⟩
  | .hbm, ⟨7, _⟩ => ⟨S_, .f32⟩
  | .hbm, ⟨8, _⟩ => ⟨S64x4096, .f32⟩
  | .hbm, ⟨9, _⟩ => ⟨S64x4096, .f32⟩
  | .hbm, ⟨10, _⟩ => ⟨S64x4096, .bf16⟩
  | .hbm, ⟨11, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S4096x64, .bf16⟩
  | .local _ .vmem, ⟨5, _⟩ => ⟨S64x4096, .bf16⟩
  | .local _ .vmem, ⟨6, _⟩ => ⟨S256x4096, .f32⟩
  | .local _ .vmem, ⟨7, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S64x4096_S4096x64_1_0 : S64x4096.Transposes [1, 0] S4096x64
  bitsLt_bf16_f32 : FTy.bits .bf16 < FTy.bits .f32
  transposes_S4096x64_S64x4096_1_0 : S4096x64.Transposes [1, 0] S64x4096
  bcast_S_S64x4096 : S_.BroadcastsInDim S64x4096 (![] : Fin 0 → Fin S64x4096.rank)
  inb_S256x4096_S256x4096_0_0 : ∀ a, (![0, 0] : Fin 2 → Nat) a + S256x4096.size a ≤ S256x4096.size a
  h_S256x4096 : 0 < S256x4096.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  dot_S256x4096_S4096x64_S256x64_1_0_0_1_n_n_wf : DotDims.WF S256x4096 S4096x64 S256x64 [1] [0] [0] [1] [] []
  dot_S256x64_S64x4096_S256x4096_1_0_0_1_n_n_wf : DotDims.WF S256x64 S64x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .f32 = 32 ∨ (Rect.block (s := S16384x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S4096x64.size a
  hwx0_2 : ∀ i : grid0.Coords, EltTy.bits .bf16 = 32 ∨ (Rect.block (s := S4096x64) S4096x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S64x4096.size a
  hwx0_3 : ∀ i : grid0.Coords, EltTy.bits .bf16 = 32 ∨ (Rect.block (s := S64x4096) S64x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S16384x4096.size a
  hwx0_4 : ∀ i : grid0.Coords, EltTy.bits .f32 = 32 ∨ (Rect.block (s := S16384x4096) S256x4096.size (cc0_transform_4 i) (hinb0_4 i)).WholeWords (EltTy.packing .f32)

variable [Facts₀]

def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S64x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S64x4096 : Shape := ⟨2, ![64, 4096]⟩
abbrev S4096x64 : Shape := ⟨2, ![4096, 64]⟩
abbrev S_ : Shape := ⟨0, ![]⟩
abbrev S16384x64 : Shape := ⟨2, ![16384, 64]⟩

abbrev nBuf : Space → Nat
  | .hbm => 17
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S64x4096, .f32⟩
  | .hbm, ⟨2, _⟩ => ⟨S4096x64, .f32⟩
  | .hbm, ⟨3, _⟩ => ⟨S16384x4096, .f32⟩
  | .hbm, ⟨4, _⟩ => ⟨S_, .f32⟩
  | .hbm, ⟨5, _⟩ => ⟨S16384x4096, .f32⟩
  | .hbm, ⟨6, _⟩ => ⟨S16384x4096, .i1⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S16384x64, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  bcast_S_S16384x4096 : S_.BroadcastsInDim S16384x4096 (![] : Fin 0 → Fin S16384x4096.rank)
  dot_S16384x4096_S64x4096_S16384x64_1_1_0_0_n_n_wf : DotDims.WF S16384x4096 S64x4096 S16384x64 [1] [1] [0] [0] [] []
  dot_S16384x64_S4096x64_S16384x4096_1_1_0_0_n_n_wf : DotDims.WF S16384x64 S4096x64 S16384x4096 [1] [1] [0] [0] [] []

variable [Facts₀]

def dot_S16384x4096_S64x4096_S16384x64_1_1_0_0_n_n : DotDims S16384x4096 S64x4096 S16384x64 where
  lhsContracting := [1]
  rhsContracting := [1]
  lhsNonContracting := [0]
  rhsNonContracting := [0]
  lhsBatch := []
  rhsBatch := []
  wf := dot_S16384x4096_S64x4096_S16384x64_1_1_0_0_n_n_wf
def dot_S16384x64_S4096x64_S16384x4096_1_1_0_0_n_n : DotDims S16384x64 S4096x64 S16384x4096 where
  lhsContracting := [1]
  rhsContracting := [1]
  lhsNonContracting := [0]
  rhsNonContracting := [0]
  lhsBatch := []
  rhsBatch := []
  wf := dot_S16384x64_S4096x64_S16384x4096_1_1_0_0_n_n_wf

class Facts : Prop extends Facts₀ where

variable [Facts]
-- ==== Proof.LibFiniteEntries.lean ====
/-
  Finite entries, on the extended reals — general facts for a claim whose precondition says "every float input is finite":

  * the coercion of a finite sum of reals is the sum of the coercions (so an identity between finite sums of products
    of real entries can be proved in `ℝ` and carried back);
  * an extended real whose absolute value `max x (-x)` compares below the float `+∞` is a real;
  * `jnp.all(|a| < +∞)` — a reduction by `and`, over all axes, of that comparison against the broadcast float `+∞` —
    being true makes every entry of `a` a real, for an array `a` of any shape.
-/
import Idealize.ShloMosaic.PureOps.Ideal
import Idealize.ShloMosaic.PureOps.Ideal.Laws
import Idealize.ShloMosaic.Lib.ValueIdx
import Idealize.ShloMosaic.Lib.ReduceAll
import Idealize.ShloMosaic.Lib.Pipeline.Value

noncomputable section

open scoped BigOperators

namespace Idealize.ShloMosaic.FiniteEntries

open Idealize.ShloMosaic Idealize.ShloMosaic.ValueIdx

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The rank-0 shape has one index. -/
instance : Subsingleton (⟨0, ![]⟩ : Shape).Idx := ⟨fun _ _ => funext fun d => d.elim0⟩

/-- An extended real whose absolute value compares below the float `+∞` is a real: `max x (-x)` is `+∞` at both
    infinities. -/
theorem real_of_abs_lt (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- `jnp.all(|a| < +∞)` being true makes every entry of `a` a real. -/
theorem real_of_all {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : (⟨0, ![]⟩ : Shape).Idx → BitVec 1)
    (e : Host.reduce IntOp.andi
          (cmpf .olt (Host.absf a) (broadcastInDim s ![] hb (constant (F := Ideal) ⟨0, ![]⟩ .f32 0x7F800000#32)))
          init hr hu ix0 = 1#1)
    (i : s.Idx) : ∃ r : ℝ, a i = r := by
  have hi := Host.reduce_andi_all _ init hr hu ix0 e i
  refine real_of_abs_lt (a i) ?_
  rw [cmpf_apply, broadcastInDim_apply ![] hb _ i ix0 fun d => d.elim0] at hi
  exact hi

end Idealize.ShloMosaic.FiniteEntries

end
-- ==== Proof.LoraFinite.lean ====
/-
  What the precondition says, entry by entry: every entry of `x`, `A` and `B` is a real number.

  The precondition is the conjunction, over the four arguments, of "every entry's absolute value is below +∞", and an
  entry passing that test is a real.
-/
import proofs.«169370_j48524540510754_2_alg».proof.Pre_finite_inputs
import proofs.«169370_j48524540510754_2_alg».proof.Proof.LibFiniteEntries
import Idealize.ShloMosaic.Lib.ReduceAll

noncomputable section

namespace Cert.Lora

open Idealize.ShloMosaic Idealize.ShloMosaic.ValueIdx Idealize.ShloMosaic.FiniteEntries

/-- The precondition, decoded: the entries of the first three arguments are reals. -/
theorem reals_of_pre [Cert.Pre_finite_inputs.Facts]
    (a0 a3 : FVec Ideal Cert.Pre_finite_inputs.S16384x4096 .f32) (a1 : FVec Ideal Cert.Pre_finite_inputs.S64x4096 .f32)
    (a2 : FVec Ideal Cert.Pre_finite_inputs.S4096x64 .f32)
    (h : Cert.Pre_finite_inputs.fn (F := Ideal) a0 a1 a2 a3 = fun _ => 1#1) :
    (∀ i, ∃ r : ℝ, a0 i = r) ∧ (∀ i, ∃ r : ℝ, a1 i = r) ∧ (∀ i, ∃ r : ℝ, a2 i = r) := by
  have h0 := congrFun h ix0
  dsimp only [Cert.Pre_finite_inputs.fn, Cert.Pre_finite_inputs.fn_part1] at h0
  obtain ⟨h012, -⟩ := IntOp.andi_eq_one.1 h0
  obtain ⟨h01, e2⟩ := IntOp.andi_eq_one.1 h012
  obtain ⟨e0, e1⟩ := IntOp.andi_eq_one.1 h01
  exact ⟨real_of_all a0 _ _ _ _ e0, real_of_all a1 _ _ _ _ e1, real_of_all a2 _ _ _ _ e2⟩

end Cert.Lora

end
-- ==== Proof.LibRowOps.lean ====
/-
  Reads at an index, for rank-2 arrays, of the operations a row-wise kernel and its reference are built from — stated
  for any extents, at the ideal values (floats are extended reals) where a float operation is involved:

  * a matrix product contracting the left operand's columns with the right operand's rows (a `tpu.matmul` into the
    zero accumulator, the host's `dot_general`), read at `(i, j)`, is the sum over `k` of `l (i, k) * r (k, j)`;
  * three equally wide arrays joined along the columns, read at `(a, c)`, are piece `c / 64` at `(a, c % 64)`;
  * a column `[a, 1]` broadcast along the rows' direction to `[a, b]` reads, at `(p, c)`, the column at `p`;
  * a scalar broadcast to any shape reads the scalar everywhere.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

/-! ## The plain matrix product -/

/-- The dimension numbers of `[A, K] × [K, B] → [A, B]`: the left operand's axis 1 contracted with the right operand's
    axis 0, no batch axis. -/
abbrev plainDims {A K B : Nat}
    (wf : DotDims.WF (⟨2, ![A, K]⟩ : Shape) ⟨2, ![K, B]⟩ ⟨2, ![A, B]⟩ [1] [0] [0] [1] [] []) :
    DotDims (⟨2, ![A, K]⟩ : Shape) ⟨2, ![K, B]⟩ ⟨2, ![A, B]⟩ :=
  ⟨[1], [0], [0], [1], [], [], wf⟩

/-- Off the contracted axis the left operand's index is the result's row, whatever the contraction position. -/
theorem plain_lhs0 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column, whatever the contraction position. -/
theorem plain_rhs1 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- The contraction sum of a plain matrix product, re-indexed by the contracted coordinate: at `j = (i, c)` the left
    operand is read along row `i`, the right one down column `c`. -/
theorem plainDot_sum {A K B : Nat} (d : DotDims (⟨2, ![A, K]⟩ : Shape) ⟨2, ![K, B]⟩ ⟨2, ![A, B]⟩)
    (hd : ∃ wf, d = plainDims wf)
    (l : (⟨2, ![A, K]⟩ : Shape).Idx → EReal) (r : (⟨2, ![K, B]⟩ : Shape).Idx → EReal) (j : (⟨2, ![A, B]⟩ : Shape).Idx) :
    ∑ k : d.contr.Idx, l (d.lhsIdx j k) * r (d.rhsIdx j k) = ∑ k : Fin K, l (ix2 (j 0) k) * r (ix2 k (j 1)) := by
  obtain ⟨wf, rfl⟩ := hd
  rw [← Equiv.sum_comp (contrEquiv1 (plainDims wf) K rfl rfl).symm]
  refine Finset.sum_congr rfl fun k _ => ?_
  have hk := contrEquiv1_symm_val (plainDims wf) K rfl rfl k
  have el : (plainDims wf).lhsIdx j ((contrEquiv1 (plainDims wf) K rfl rfl).symm k) = ix2 (j 0) k :=
    funext fun a => Fin.ext (by
      match a with
      | ⟨0, _⟩ => exact plain_lhs0 wf j _
      | ⟨1, _⟩ => exact ((plainDims wf).lhsIdx_val_of_single (cl := 1) rfl j _).trans hk)
  have er : (plainDims wf).rhsIdx j ((contrEquiv1 (plainDims wf) K rfl rfl).symm k) = ix2 k (j 1) :=
    funext fun a => Fin.ext (by
      match a with
      | ⟨0, _⟩ => exact ((plainDims wf).rhsIdx_val_of_single (cr := 0) rfl j _).trans hk
      | ⟨1, _⟩ => exact plain_rhs1 wf j _)
  rw [el, er]
  rfl

/-- A `tpu.matmul` of a plain product into the zero accumulator, read at `(i, c)`: the sum over `k` of
    `l (i, k) * r (k, c)`. -/
theorem matmul_zero_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision)
    (l : FVec Ideal (⟨2, ![A, K]⟩ : Shape) φ₁) (r : FVec Ideal (⟨2, ![K, B]⟩ : Shape) φ₂) (i : Fin A) (c : Fin B) :
    FloatOps.matmul d prec l r (constant (⟨2, ![A, B]⟩ : Shape) .f32 0x00000000#32) (ix2 i c)
      = ∑ k : Fin K, l (ix2 i k) * r (ix2 k c) := by
  rw [Ideal.matmul_constant_zero_apply]
  exact plainDot_sum d hd l r (ix2 i c)

/-- The host's `dot_general` of a plain product, read at `(i, c)`: the same sum. -/
theorem dotGeneral_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision) (sched : HostSchedule)
    (l : FVec Ideal (⟨2, ![A, K]⟩ : Shape) φ₁) (r : FVec Ideal (⟨2, ![K, B]⟩ : Shape) φ₂) (i : Fin A) (c : Fin B) :
    FloatOps.dotGeneral d prec sched l r (ix2 i c) = ∑ k : Fin K, l (ix2 i k) * r (ix2 k c) := by
  rw [Ideal.dotGeneral_apply]
  exact plainDot_sum d hd l r (ix2 i c)

/-! ## Three pieces joined along the columns -/

variable {α : Type}

/-- Three `[A, 64]` arrays joined along axis 1 into `[A, 192]`, read at `(a, c)`: piece `c / 64` at `(a, c % 64)`. -/
theorem concat3_apply {A : Nat} (u0 u1 u2 : (⟨2, ![A, 64]⟩ : Shape).Idx → α)
    (h : Shape.Concatenates [(⟨2, ![A, 64]⟩ : Shape), ⟨2, ![A, 64]⟩, ⟨2, ![A, 64]⟩] ⟨2, ![A, 192]⟩ 1)
    (a : Fin A) (c : Fin 192) :
    concatenate (⟨2, ![A, 192]⟩ : Shape) 1 [⟨⟨2, ![A, 64]⟩, u0⟩, ⟨⟨2, ![A, 64]⟩, u1⟩, ⟨⟨2, ![A, 64]⟩, u2⟩] h (ix2 a c)
      = (![u0, u1, u2] ⟨c.val / 64, by have := c.isLt; omega⟩) (ix2 a ⟨c.val % 64, Nat.mod_lt _ (by decide)⟩) := by
  refine concatenate_ofFn_apply (t := (⟨2, ![A, 192]⟩ : Shape)) (s₁ := (⟨2, ![A, 64]⟩ : Shape)) 1 ![u0, u1, u2] h rfl 64 rfl
    (ix2 a c) ⟨c.val / 64, by have := c.isLt; omega⟩ rfl (ix2 a ⟨c.val % 64, Nat.mod_lt _ (by decide)⟩) rfl ?_
  intro b hb
  match b with
  | ⟨0, _⟩ => rfl
  | ⟨1, _⟩ => exact absurd rfl hb

/-! ## A column broadcast along its rows -/

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A scalar broadcast -/

/-- A scalar broadcast to any shape reads, everywhere, the scalar. -/
theorem broadcastInDim_scalar_apply {t : Shape} (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply ![] h x j ix0 fun a => a.elim0

end Idealize.ShloMosaic.RowOps

end
-- ==== Proof.LoraLaw.lean ====
/-
  The algebra that joins a low-rank layer computed two ways, on the extended reals.

  One program drops an entry of `x` by multiplying it with a 0/1 mask, scales the kept entries by the keep scale `s`,
  contracts with `A` then with `B`, and doubles the result.  The other selects the entry or zero, contracts with `A`,
  and contracts with `B` already multiplied by the folded scale `2 s`.  For real entries the two are one number:
  the scales are constants of each sum, and a constant factor moves across a finite sum of reals (distributivity —
  which is why the entries have to be real: on the extended reals a factor does not move across a sum with
  infinities in it).  The two scales are the float patterns the programs spell, read exactly: the folded one is
  the same significand one binade up, hence exactly twice the keep scale.
-/
import proofs.«169370_j48524540510754_2_alg».proof.Proof.LibFiniteEntries
import Idealize.ShloMosaic.PureOps.Ideal
import Idealize.ShloMosaic.PureOps.Ideal.Laws
import Idealize.ShloMosaic.Lib.ValueIdx

noncomputable section

open scoped BigOperators

namespace Cert.Lora

open Idealize.ShloMosaic

/-! ## The constants the two programs spell -/

/-- The keep scale `1 / (1 - 0.1)` rounded to a float: `2330169 / 2^21`. -/
theorem keepScale_val : Ideal.ofBits .f32 0x3F8E38E4#32 = ((2330169 / 2097152 : ℝ) : EReal) := by
  simp [Ideal.ofBits, Ideal.ieee, -EReal.coe_mul]; norm_num

/-- The folded scale `2 / (1 - 0.1)` rounded to a float: the same significand one binade up, `2330169 / 2^20`. -/
theorem foldedScale_val : Ideal.ofBits .f32 0x400E38E4#32 = ((2330169 / 1048576 : ℝ) : EReal) := by
  simp [Ideal.ofBits, Ideal.ieee, -EReal.coe_mul]; norm_num

/-- The float `2.0` is the real `2`. -/
theorem two_val : Ideal.ofBits .f32 0x40000000#32 = ((2 : ℝ) : EReal) := by
  simp [Ideal.ofBits, Ideal.ieee, -EReal.coe_mul]; norm_num

/-! ## A dropped-or-kept entry -/

/-- The dropout threshold, as the float the programs spell (both programs compare against this one pattern, so its
    value is never needed). -/
abbrev thr : EReal := Ideal.ofBits .f32 0x3DCCCCCD#32

/-- An entry `x` kept when its uniform draw `u` is at least the threshold, zero otherwise. -/
def masked (x u : EReal) : EReal := if thr ≤ u then x else 0

/-- Selecting the entry or zero by the comparison is the masked entry. -/
theorem select_masked (x u : EReal) : Scalar.select (Ideal.cmp .oge u thr) x 0 = masked x u := by
  unfold masked Ideal.cmp
  by_cases h : thr ≤ u
  · rw [if_pos h]; simp only [h, decide_true]; exact ValueIdx.select_one _ _
  · rw [if_neg h]; simp only [h, decide_false]; exact ValueIdx.select_zero _ _

/-- Multiplying the entry by the comparison's bit read as a number (1 or 0) is the masked entry too: on the extended
    reals `x * 1 = x` and `x * 0 = 0` for every `x`. -/
theorem mul_keep_masked (x u : EReal) : x * (((Ideal.cmp .oge u thr).toNat : ℝ) : EReal) = masked x u := by
  unfold masked Ideal.cmp
  by_cases h : thr ≤ u
  · rw [if_pos h]; simp [h]
  · rw [if_neg h]; simp [h]

/-- A real entry masked is a real. -/
theorem masked_coe (x : ℝ) (u : EReal) : masked (x : EReal) u = (((if thr ≤ u then x else 0 : ℝ)) : EReal) := by
  unfold masked
  split <;> simp

/-! ## The law -/

/-- For real entries: contracting the kept entries with `A`, then with `B` times the folded scale, is the doubled
    contraction with `B` of the contraction with `A` of the kept entries times the keep scale. -/
theorem scale_law {R K : Type*} [Fintype R] [Fintype K] (w : K → ℝ) (A : R → K → ℝ) (B : R → ℝ) :
    ∑ r, (∑ k, (w k : EReal) * (A r k : EReal)) * ((B r : EReal) * Ideal.ofBits .f32 0x400E38E4#32)
      = (∑ r, (∑ k, ((w k : EReal) * Ideal.ofBits .f32 0x3F8E38E4#32) * (A r k : EReal)) * (B r : EReal))
          * Ideal.ofBits .f32 0x40000000#32 := by
  rw [keepScale_val, foldedScale_val, two_val]
  simp only [← EReal.coe_mul, ← FiniteEntries.coe_sum]
  rw [EReal.coe_eq_coe_iff]
  simp only [Finset.sum_mul]
  refine Finset.sum_congr rfl fun r _ => Finset.sum_congr rfl fun k _ => ?_
  ring

end Cert.Lora

end
-- ==== Proof.LoraKernelPoint.lean ====
/-
  The kernel body's one stored value, read at an entry.

  At a grid point the body holds a block of 256 rows of `x` and of the uniform draws `u`, the whole transposed
  `A` (4096 × 64) and the whole transposed, pre-scaled `B` (64 × 4096).  Entry `(p, q)` of what it stores is
  `∑ r, (∑ k, masked x[p,k] u[p,k] · At[k,r]) · Bt[r,q]`: the select keeps or zeroes an entry, the two matrix
  products start from zero accumulators, and the changes of float format in between are the identity on the
  extended reals.
-/
import proofs.«169370_j48524540510754_2_alg».proof.Proof.Gen.KernelIdeal.Skeleton
import proofs.«169370_j48524540510754_2_alg».proof.Proof.LibRowOps
import proofs.«169370_j48524540510754_2_alg».proof.Proof.LoraLaw
import Idealize.ShloMosaic.Lib.ValueIdx
import Idealize.ShloMosaic.Lib.Pipeline.Value

noncomputable section

open scoped BigOperators

namespace Cert.Lora

open Cert.KernelIdeal Cert.KernelIdeal.Gen Idealize.ShloMosaic Idealize.ShloMosaic.ValueIdx

/-- The body's stored value at entry `(p, q)` of the block. -/
theorem payload_apply (x0 x1 : Vec Ideal S256x4096 .f32) (x2 : Vec Ideal S4096x64 .bf16) (x3 : Vec Ideal S64x4096 .bf16)
    (p : Fin 256) (q : Fin 4096) :
    k0_pay1 (F := Ideal) x0 x1 x2 x3 (ix2 p q)
      = ∑ r : Fin 64, (∑ k : Fin 4096, masked (x0 (ix2 p k)) (x1 (ix2 p k)) * x2 (ix2 k r)) * x3 (ix2 r q) := by
  unfold k0_pay1
  refine (RowOps.matmul_zero_plain_apply dot_S256x64_S64x4096_S256x4096_1_0_0_1_n_n ⟨_, rfl⟩ none _ _ p q).trans ?_
  refine Finset.sum_congr rfl fun r _ => ?_
  refine congrArg₂ (· * ·) ?_ ?_
  · refine (RowOps.matmul_zero_plain_apply dot_S256x4096_S4096x64_S256x64_1_0_0_1_n_n ⟨_, rfl⟩ none _ _ p r).trans ?_
    refine Finset.sum_congr rfl fun k _ => ?_
    refine congrArg₂ (· * ·) ?_ ?_
    · refine Eq.trans ?_ (select_masked (x0 (ix2 p k)) (x1 (ix2 p k)))
      show Scalar.select _ _ (Ideal.ofBits .f32 0x00000000#32) = Scalar.select _ _ 0
      rw [Ideal.ofBits_zero_f32]
      rfl
    · exact congrFun (shapeCast_self x2 _) (ix2 k r)
  · exact congrFun (shapeCast_self x3 _) (ix2 r q)

end Cert.Lora

end
-- ==== Proof.LoraSpec.lean ====
/-
  The two programs' results as whole-array functions of the arguments, and that they agree for real entries.

  With `x` and the uniform draws `u` of shape 16384 × 4096, `A` of shape 64 × 4096 and `B` of shape 4096 × 64,
  entry `(t, o)` of the kernel's result is `∑ r, (∑ k, masked x[t,k] u[t,k] · A[r,k]) · (B[o,r] · 2s)` and of the
  reference's `(∑ r, (∑ k, (masked x[t,k] u[t,k] · s) · A[r,k]) · B[o,r]) · 2`, `s` the keep scale.  For real
  entries these are one number (`scale_law`).
-/
import proofs.«169370_j48524540510754_2_alg».proof.Proof.LoraLaw
import Idealize.ShloMosaic.Lib.ValueIdx

noncomputable section

open scoped BigOperators

namespace Cert.Lora

open Idealize.ShloMosaic Idealize.ShloMosaic.ValueIdx

/-- The shapes of `x` (and of the draws and of the result), of `A` and of `B`. -/
abbrev SX : Shape := ⟨2, ![16384, 4096]⟩
abbrev SA : Shape := ⟨2, ![64, 4096]⟩
abbrev SB : Shape := ⟨2, ![4096, 64]⟩

/-- Entry `(t, o)` of the kernel's result: row `t`'s kept entries contracted with `A`, then with row `o` of `B`
    times the folded scale. -/
def kernelAt (x u : SX.Idx → EReal) (A : SA.Idx → EReal) (B : SB.Idx → EReal) (t : Fin 16384) (o : Fin 4096) : EReal :=
  ∑ r : Fin 64, (∑ k : Fin 4096, masked (x (ix2 t k)) (u (ix2 t k)) * A (ix2 r k))
    * (B (ix2 o r) * Ideal.ofBits .f32 0x400E38E4#32)

/-- Entry `(t, o)` of the reference's result: row `t`'s kept entries times the keep scale contracted with `A`, then
    with row `o` of `B`, then doubled. -/
def referenceAt (x u : SX.Idx → EReal) (A : SA.Idx → EReal) (B : SB.Idx → EReal) (t : Fin 16384) (o : Fin 4096) : EReal :=
  (∑ r : Fin 64, (∑ k : Fin 4096, (masked (x (ix2 t k)) (u (ix2 t k)) * Ideal.ofBits .f32 0x3F8E38E4#32) * A (ix2 r k))
    * B (ix2 o r)) * Ideal.ofBits .f32 0x40000000#32

/-- The kernel's result array. -/
def kernelOut (x u : SX.Idx → EReal) (A : SA.Idx → EReal) (B : SB.Idx → EReal) : SX.Idx → EReal :=
  fun i => kernelAt x u A B (i 0) (i 1)

/-- The reference's result array. -/
def referenceOut (x u : SX.Idx → EReal) (A : SA.Idx → EReal) (B : SB.Idx → EReal) : SX.Idx → EReal :=
  fun i => referenceAt x u A B (i 0) (i 1)

/-- For real entries of `x`, `A` and `B` the two results agree entry by entry (the draws may be anything: they are
    only compared with the threshold). -/
theorem kernelAt_eq_referenceAt (x u : SX.Idx → EReal) (A : SA.Idx → EReal) (B : SB.Idx → EReal)
    (hx : ∀ i, ∃ r : ℝ, x i = r) (hA : ∀ i, ∃ r : ℝ, A i = r) (hB : ∀ i, ∃ r : ℝ, B i = r)
    (t : Fin 16384) (o : Fin 4096) : kernelAt x u A B t o = referenceAt x u A B t o := by
  choose x' hx' using hx
  choose A' hA' using hA
  choose B' hB' using hB
  unfold kernelAt referenceAt
  simp only [hx', hA', hB', masked_coe]
  exact scale_law (fun k => if thr ≤ u (ix2 t k) then x' (ix2 t k) else 0) (fun r k => A' (ix2 r k))
    (fun r => B' (ix2 o r))

/-- So the two result arrays are the same array. -/
theorem kernelOut_eq_referenceOut (x u : SX.Idx → EReal) (A : SA.Idx → EReal) (B : SB.Idx → EReal)
    (hx : ∀ i, ∃ r : ℝ, x i = r) (hA : ∀ i, ∃ r : ℝ, A i = r) (hB : ∀ i, ∃ r : ℝ, B i = r) :
    kernelOut x u A B = referenceOut x u A B :=
  funext fun i => kernelAt_eq_referenceAt x u A B hx hA hB (i 0) (i 1)

end Cert.Lora

end
-- ==== Proof.LoraKernelArray.lean ====
/-
  The kernel's result array after the run is `kernelOut` of the arguments.

  The grid has 64 points; point `t` holds rows `256 t … 256 t + 255` of `x` and of the draws, the whole transposed
  `A` and the whole transposed `B` times the folded scale (both prepared before the launch), and writes rows
  `256 t … 256 t + 255` of the result.  So entry `(p, q)` of what point `t` writes is entry `(256 t + p, q)` of
  `kernelOut`, and the 64 row blocks cover the result array.
-/
import proofs.«169370_j48524540510754_2_alg».proof.Proof.Gen.KernelIdeal.Value
import proofs.«169370_j48524540510754_2_alg».proof.Proof.LoraKernelPoint
import proofs.«169370_j48524540510754_2_alg».proof.Proof.LoraSpec
import Idealize.ShloMosaic.Lib.Pipeline.Value
import Idealize.ShloMosaic.Lib.ValueLayout
import Idealize.ShloMosaic.Lib.StableHlo.Run
import Idealize.ShloMosaic.Lib.Tactic

noncomputable section

open scoped BigOperators
open Idealize.ShloMosaic Idealize.ShloMosaic.TcCoe Idealize.SL.Sem
open Idealize.ShloMosaic.Pipeline (Dat)

namespace Cert.Lora

open Cert.KernelIdeal Cert.KernelIdeal.Gen Cert.KernelIdeal.Value Idealize.ShloMosaic.ValueIdx

variable (m : (ℓ : Loc nD τ sig) → Buf (Elt Ideal) ℓ) (ρ : Dev nD → PrngReg)

/-- The four argument arrays on core `c`, as launched. -/
abbrev argX (c : Dev nD) : SX.Idx → EReal := m ((c : Thread nD τ).loc main_arg0)
abbrev argA (c : Dev nD) : SA.Idx → EReal := m ((c : Thread nD τ).loc main_arg1)
abbrev argB (c : Dev nD) : SB.Idx → EReal := m ((c : Thread nD τ).loc main_arg2)
abbrev argU (c : Dev nD) : SX.Idx → EReal := m ((c : Thread nD τ).loc main_arg3)

theorem hz : (![0, 0] : Fin 2 → Nat) = fun _ => 0 := funext fun a => by fin_cases a <;> rfl

/-- The block indices at a grid point: the row-blocked windows (`x`, the draws, the result) are at block row `t`,
    the two resident operands at block `(0, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The two operands prepared before the launch -/

/-- The transposed `A`, as the region finds it, at `(k, r)`: `A` at `(r, k)`. -/
theorem V_at_apply (c : Dev nD) (k : Fin 4096) (r : Fin 64) :
    (V m c main_v1 : S4096x64.Idx → EReal) (ix2 k r) = argA m c (ix2 r k) := by
  have e : (V m c main_v1 : S4096x64.Idx → EReal)
      = truncf (F := Ideal) .bf16 (transpose S4096x64 [1, 0] (argA m c) Gen.transposes_S64x4096_S4096x64_1_0) Gen.bitsLt_bf16_f32 := by
    dsimp only [Gen.V, Gen.hostOps0]; after_results; all_goals rfl
  rw [e, truncf_apply]
  exact transpose_ix2_apply (argA m c) _ k r

/-- The transposed, scaled `B`, as the region finds it, at `(r, q)`: `B` at `(q, r)` times the folded scale. -/
theorem V_bt_apply (c : Dev nD) (r : Fin 64) (q : Fin 4096) :
    (V m c main_v5 : S64x4096.Idx → EReal) (ix2 r q) = argB m c (ix2 q r) * Ideal.ofBits .f32 0x400E38E4#32 := by
  have e : (V m c main_v5 : S64x4096.Idx → EReal)
      = truncf (F := Ideal) .bf16 (mulf (transpose S64x4096 [1, 0] (argB m c) Gen.transposes_S4096x64_S64x4096_1_0)
          (broadcastInDim S64x4096 ![] Gen.bcast_S_S64x4096 (constant (F := Ideal) S_ .f32 0x400E38E4#32))) Gen.bitsLt_bf16_f32 := by
    dsimp only [Gen.V, Gen.hostOps0]; after_results; all_goals rfl
  rw [e, truncf_apply, mulf_apply, RowOps.broadcastInDim_scalar_apply, constant_apply]
  exact congrArg (· * _) (transpose_ix2_apply (argB m c) _ r q)

/-! ## The blocks a point holds -/

/-- The block of `x` at point `t` is rows `256 t …` of `x`. -/
theorem iblk_x (c : Dev nD) (t : Fin cfg0.N) (y : S256x4096.Idx) (i : SX.Idx)
    (h0 : (i 0).val = t.val * 256 + (y 0).val) (h1 : (i 1).val = (y 1).val) :
    (iblk m c 0 t : Vec Ideal S256x4096 .f32) y = argX m c i := by
  obtain ⟨e0, e1, -⟩ := idx_facts t
  unfold iblk
  rw [View.read_apply]
  show V m c main_arg0 _ = _
  rw [V_main_arg0]
  show argX m c _ = argX m c i
  congr 1
  funext a
  apply Fin.ext
  match a with
  | ⟨0, _⟩ => show win0_0.index t (0 : Fin 2) * 256 + 1 * (y 0).val = (i 0).val; rw [e0, h0]; omega
  | ⟨1, _⟩ => show win0_0.index t (1 : Fin 2) * 4096 + 1 * (y 1).val = (i 1).val; rw [e1, h1]; omega

/-- The block of the draws at point `t` is rows `256 t …` of the draws. -/
theorem iblk_u (c : Dev nD) (t : Fin cfg0.N) (y : S256x4096.Idx) (i : SX.Idx)
    (h0 : (i 0).val = t.val * 256 + (y 0).val) (h1 : (i 1).val = (y 1).val) :
    (iblk m c 1 t : Vec Ideal S256x4096 .f32) y = argU m c i := by
  obtain ⟨-, -, e0, e1, -⟩ := idx_facts t
  unfold iblk
  rw [View.read_apply]
  show V m c main_arg3 _ = _
  rw [V_main_arg3]
  show argU m c _ = argU m c i
  congr 1
  funext a
  apply Fin.ext
  match a with
  | ⟨0, _⟩ => show win0_1.index t (0 : Fin 2) * 256 + 1 * (y 0).val = (i 0).val; rw [e0, h0]; omega
  | ⟨1, _⟩ => show win0_1.index t (1 : Fin 2) * 4096 + 1 * (y 1).val = (i 1).val; rw [e1, h1]; omega

/-- The block of the transposed `A` at any point is all of it. -/
theorem iblk_at (c : Dev nD) (t : Fin cfg0.N) (k : Fin 4096) (r : Fin 64) :
    (iblk m c 2 t : Vec Ideal S4096x64 .bf16) (ix2 k r) = argA m c (ix2 r k) := by
  obtain ⟨-, -, -, -, e0, e1, -⟩ := idx_facts t
  refine Eq.trans ?_ (V_at_apply m c k r)
  unfold iblk
  rw [View.read_apply]
  show V m c main_v1 _ = V m c main_v1 (ix2 k r)
  congr 1
  funext a
  apply Fin.ext
  match a with
  | ⟨0, _⟩ => show win0_2.index t (0 : Fin 2) * 4096 + 1 * k.val = k.val; rw [e0]; omega
  | ⟨1, _⟩ => show win0_2.index t (1 : Fin 2) * 64 + 1 * r.val = r.val; rw [e1]; omega

/-- The block of the transposed, scaled `B` at any point is all of it. -/
theorem iblk_bt (c : Dev nD) (t : Fin cfg0.N) (r : Fin 64) (q : Fin 4096) :
    (iblk m c 3 t : Vec Ideal S64x4096 .bf16) (ix2 r q) = argB m c (ix2 q r) * Ideal.ofBits .f32 0x400E38E4#32 := by
  obtain ⟨-, -, -, -, -, -, e0, e1, -⟩ := idx_facts t
  refine Eq.trans ?_ (V_bt_apply m c r q)
  unfold iblk
  rw [View.read_apply]
  show V m c main_v5 _ = V m c main_v5 (ix2 r q)
  congr 1
  funext a
  apply Fin.ext
  match a with
  | ⟨0, _⟩ => show win0_3.index t (0 : Fin 2) * 64 + 1 * r.val = r.val; rw [e0]; omega
  | ⟨1, _⟩ => show win0_3.index t (1 : Fin 2) * 4096 + 1 * q.val = q.val; rw [e1]; omega

/-! ## What a point writes back, and the array after the run -/

/-- Entry `(p, q)` of the body's stored value at point `t` is entry `(256 t + p, q)` of `kernelOut`. -/
theorem stored_apply (c : Dev nD) (t : Fin cfg0.N) (p : Fin 256) (q : Fin 4096) (hr : t.val * 256 + p.val < 16384) :
    k0_pay1 (F := Ideal) (iblk m c 0 t) (iblk m c 1 t) (iblk m c 2 t) (iblk m c 3 t) (ix2 p q)
      = kernelAt (argX m c) (argU m c) (argA m c) (argB m c) ⟨t.val * 256 + p.val, hr⟩ q := by
  refine (payload_apply _ _ _ _ p q).trans ?_
  unfold kernelAt
  refine Finset.sum_congr rfl fun r _ => congrArg₂ (· * ·) (Finset.sum_congr rfl fun k _ => congrArg₂ (· * ·) ?_ ?_) ?_
  · exact congrArg₂ masked (iblk_x m c t (ix2 p k) (ix2 ⟨t.val * 256 + p.val, hr⟩ k) rfl rfl)
      (iblk_u m c t (ix2 p k) (ix2 ⟨t.val * 256 + p.val, hr⟩ k) rfl rfl)
  · exact iblk_at m c t k r
  · exact iblk_bt m c t r q

/-- What point `t` writes back is block `t` of `kernelOut` of the arguments. -/
theorem flushed_eq (c : Dev nD) (t : Fin cfg0.N) :
    (dats m 0 c).flushed 4 t
      = ((cfg0.win 4).blk t).view.read (Elt Ideal) (kernelOut (argX m c) (argU m c) (argA m c) (argB m c)) := by
  obtain ⟨-, -, -, -, -, -, -, -, e0, e1⟩ := idx_facts t
  have hN : t.val < 64 := lt_of_lt_of_eq t.isLt N_0
  rw [Value.flushed4]
  unfold out0_4
  rw [View.canon_unit_zero hz]
  simp only [View.ld_unit_zero (S := S256x4096) hz, View.ld_unit_zero (S := S4096x64) hz, View.ld_unit_zero (S := S64x4096) hz]
  funext j
  have hp : (j 0).val < 256 := (j 0).isLt
  have hq : (j 1).val < 4096 := (j 1).isLt
  have hj : (cfg0.win 4).xinj (grid0.coords t) j = ix2 (⟨(j 0).val, hp⟩ : Fin 256) (⟨(j 1).val, hq⟩ : Fin 4096) :=
    funext fun a => by match a with | ⟨0, _⟩ => rfl | ⟨1, _⟩ => rfl
  show k0_pay1 (F := Ideal) (iblk m c 0 t) (iblk m c 1 t) (iblk m c 2 t) (iblk m c 3 t) ((cfg0.win 4).xinj (grid0.coords t) j) = _
  rw [hj, stored_apply m c t ⟨(j 0).val, hp⟩ ⟨(j 1).val, hq⟩ (by show t.val * 256 + (j 0).val < 16384; omega), View.read_apply]
  unfold kernelOut
  have h0 : ((((cfg0.win 4).blk t).view.emb j) 0).val = t.val * 256 + (j 0).val := by
    show win0_4.index t (0 : Fin 2) * 256 + 1 * (j 0).val = _; rw [e0]; omega
  have h1 : ((((cfg0.win 4).blk t).view.emb j) 1).val = (j 1).val := by
    show win0_4.index t (1 : Fin 2) * 4096 + 1 * (j 1).val = _; rw [e1]; omega
  exact congrArg₂ (kernelAt (argX m c) (argU m c) (argA m c) (argB m c)) (Fin.ext h0.symm) (Fin.ext h1.symm)

/-- An index of the result array is in point `t`'s block iff each coordinate is in the block's range on its axis. -/
theorem mem_blk (t : Fin cfg0.N) (i : S16384x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v6).slice (win0_4.rect t)).set ↔ _
  rw [View.set_slice_whole, Rect.mem_set_unit]
  exact Iff.rfl

/-- Every index of the result array is in the block of the point its row falls in. -/
theorem cover (i : S16384x4096.Idx) : ∃ t : Fin cfg0.N, (cfg0.win 4).flush t = true ∧ i ∈ ((cfg0.win 4).blk t).view.set := by
  have hi0 : (i 0).val < 16384 := (i 0).isLt
  have hi1 : (i 1).val < 4096 := (i 1).isLt
  have hN : cfg0.N = 64 := N_0
  let t : Fin cfg0.N := ⟨(i 0).val / 256, by rw [hN]; omega⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 256 ≤ (i 0).val ∧ (i 0).val < win0_4.index t (0 : Fin 2) * 256 + 256
    rw [e0]; show (i 0).val / 256 * 256 ≤ (i 0).val ∧ (i 0).val < (i 0).val / 256 * 256 + 256; omega
  | ⟨1, _⟩ =>
    show win0_4.index t (1 : Fin 2) * 4096 ≤ (i 1).val ∧ (i 1).val < win0_4.index t (1 : Fin 2) * 4096 + 4096
    rw [e1]; omega

/-- The result array after the run is `kernelOut` of the arguments. -/
theorem final (c : Dev nD) :
    (dats m 0 c).arrAt 4 cfg0.N = kernelOut (argX m c) (argU m c) (argA m c) (argB m c) :=
  (dats m 0 c).arrAt_eq_of_cover 4 _ (fun t _ => flushed_eq m c t) cover

/-- The kernel's run: the result array at `kernelOut` of the arguments, the arguments unchanged. -/
theorem kernel_run : θ_run defs (onTc (τ := τ) (main (F := Ideal))) ⟨m, fun _ => 0, ρ⟩ fun r => ∀ c : Dev nD,
      r.2.mem ((c : Thread nD τ).loc main_v6) = kernelOut (argX m c) (argU m c) (argA m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.Lora

end
-- ==== Proof.LoraReference.lean ====
/-
  The reference, read at an entry: its result is `referenceOut` of its arguments.

  The reference multiplies `x` by the 0/1 mask and by the keep scale, contracts row `t` of that with row `r` of `A`
  over the 4096 columns, contracts the 64 results with row `o` of `B`, and doubles.  The generated reads give each
  stage at an index; written here are only the four index equations that name the operands' indices by coordinates,
  and that an entry times its mask bit is the masked entry.
-/
import proofs.«169370_j48524540510754_2_alg».proof.Proof.Gen.ReferenceIdeal.Read
import proofs.«169370_j48524540510754_2_alg».proof.Proof.LoraSpec

noncomputable section

open scoped BigOperators

namespace Cert.Lora

open Cert.ReferenceIdeal Cert.ReferenceIdeal.Gen Cert.ReferenceIdeal.Read Idealize.ShloMosaic Idealize.ShloMosaic.ValueIdx

/-- The reference's last stage at entry `(t, o)`. -/
theorem reference_apply (x0 x3 : SX.Idx → EReal) (x1 : SA.Idx → EReal) (x2 : SB.Idx → EReal) (t : Fin 16384) (o : Fin 4096) :
    val_main_v9 (F := Ideal) x0 x1 x2 x3 (ix2 t o) = referenceAt x0 x3 x1 x2 t o := by
  have el7 : ∀ k : Fin 64, lidx_main_v7 (ix2 t o) k = ix2 t k := fun k =>
    funext fun a => by match a with | ⟨0, _⟩ => rfl | ⟨1, _⟩ => rfl
  have er7 : ∀ k : Fin 64, ridx_main_v7 (ix2 t o) k = ix2 o k := fun k =>
    funext fun a => by match a with | ⟨0, _⟩ => rfl | ⟨1, _⟩ => rfl
  have el6 : ∀ (r : Fin 64) (k : Fin 4096), lidx_main_v6 (ix2 t r) k = ix2 t k := fun r k =>
    funext fun a => by match a with | ⟨0, _⟩ => rfl | ⟨1, _⟩ => rfl
  have er6 : ∀ (r : Fin 64) (k : Fin 4096), ridx_main_v6 (ix2 t r) k = ix2 r k := fun r k =>
    funext fun a => by match a with | ⟨0, _⟩ => rfl | ⟨1, _⟩ => rfl
  rw [val_main_v9_apply, val_main_v7_apply, val_main_v8_apply, val_main_cst_1_apply]
  unfold referenceAt
  refine congrArg₂ (· * ·) (Finset.sum_congr rfl fun r _ => congrArg₂ (· * ·) ?_ ?_) rfl
  · rw [el7, val_main_v6_apply]
    refine Finset.sum_congr rfl fun k _ => congrArg₂ (· * ·) ?_ ?_
    · rw [el6, val_main_v5_apply, val_main_v4_apply, val_main_cst_0_apply, val_main_v3_apply, val_main_v2_apply,
        val_main_v1_apply, val_main_v0_apply, val_main_cst_apply]
      exact congrArg₂ (· * ·) (mul_keep_masked _ _) rfl
    · rw [er6]
  · rw [er7]

/-- The reference's last stage is `referenceOut` of the four arguments. -/
theorem reference_eq (x0 x3 : SX.Idx → EReal) (x1 : SA.Idx → EReal) (x2 : SB.Idx → EReal) :
    val_main_v9 (F := Ideal) x0 x1 x2 x3 = referenceOut x0 x3 x1 x2 := by
  funext i
  obtain ⟨t, o, rfl⟩ : ∃ (t : Fin 16384) (o : Fin 4096), i = ix2 t o := ⟨i 0, i 1, eq_ix2 i⟩
  exact reference_apply x0 x3 x1 x2 t o

end Cert.Lora

end
-- ==== Proof.lean ====
/-
  A low-rank adapter layer with dropout, `out = ((dropout(x) · Aᵀ) · Bᵀ) · 2`, computed two ways, is one function of its
  arguments on the extended reals, for finite arguments.

  The reference zeroes an entry of `x` (16384 × 4096) by multiplying it with a 0/1 mask taken from the uniform draws,
  multiplies by the keep scale `s` (the float nearest `1/0.9`), contracts with `A` (64 × 4096) over the 4096
  columns, contracts the result with `B` (4096 × 64) over the 64 ranks, and doubles.  The kernel, on 64 blocks of
  256 rows, selects the entry or zero, contracts with the transposed `A`, and contracts with the transposed `B`
  that was multiplied beforehand by the folded scale — the float nearest `2/0.9`, which is the same significand
  one binade up and so exactly `2 s`.  The changes of float format are the identity on the extended reals, a
  matrix product into a zero accumulator and a `dot_general` are the same finite sum, and for real entries the
  constant factors `s` and `2` move across the two finite sums (distributivity, which is where the precondition
  "every entry is finite" is used).

  Modules: `LoraLaw` (the constants, the masked entry, the law), `LoraSpec` (the two results as whole-array functions,
  equal for real entries), `LoraFinite` (the precondition gives real entries), `LoraKernelPoint` (the kernel body's
  stored value at an entry), `LoraKernelArray` (the blocks assembled into the result array), `LoraReference` (the
  reference read at an entry), `LibRowOps` (rank-2 reads at an index), `LibFiniteEntries` (finite entries are reals; real sums
  inside the extended reals).
-/
import proofs.«169370_j48524540510754_2_alg».proof.Defs
import proofs.«169370_j48524540510754_2_alg».proof.Proof.Gen.Kernel
import proofs.«169370_j48524540510754_2_alg».proof.Proof.Gen.Kernel.Skeleton
import proofs.«169370_j48524540510754_2_alg».proof.Proof.Gen.Kernel.Launch
import proofs.«169370_j48524540510754_2_alg».proof.Proof.Gen.Kernel.Points
import proofs.«169370_j48524540510754_2_alg».proof.Proof.Gen.Kernel.Frame
import proofs.«169370_j48524540510754_2_alg».proof.Proof.Gen.KernelIdeal
import proofs.«169370_j48524540510754_2_alg».proof.Proof.Gen.KernelIdeal.Skeleton
import proofs.«169370_j48524540510754_2_alg».proof.Proof.Gen.KernelIdeal.Launch
import proofs.«169370_j48524540510754_2_alg».proof.Proof.Gen.KernelIdeal.Points
import proofs.«169370_j48524540510754_2_alg».proof.Proof.Gen.KernelIdeal.Frame
import proofs.«169370_j48524540510754_2_alg».proof.Proof.Gen.ReferenceIdeal
import proofs.«169370_j48524540510754_2_alg».proof.Proof.Gen.Pre_finite_inputs
import proofs.«169370_j48524540510754_2_alg».proof.Proof.Gen.KernelIdeal.Value
import proofs.«169370_j48524540510754_2_alg».proof.Proof.Gen.ReferenceIdeal.Run
import proofs.«169370_j48524540510754_2_alg».proof.Proof.Gen.ReferenceIdeal.Read
import proofs.«169370_j48524540510754_2_alg».proof.Proof.LoraFinite
import proofs.«169370_j48524540510754_2_alg».proof.Proof.LoraKernelArray
import proofs.«169370_j48524540510754_2_alg».proof.Proof.LoraReference
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten when it was read on the extended reals. -/
theorem preserves : Cert.preserves_Kernel_KernelIdeal := trivial

/-- From memories agreeing on the four arguments, all finite, the kernel's result array ends at `kernelOut` of the
    arguments and the reference's at `referenceOut` of them, and for real entries these are one array. -/
theorem algebraic : Cert.algebraic_KernelIdeal_ReferenceIdeal := by
  intro m ρ m' ρ' hpre hagree
  refine ⟨fun c => Cert.Lora.kernelOut (Cert.Lora.argX m c) (Cert.Lora.argU m c) (Cert.Lora.argA m c) (Cert.Lora.argB m c),
    Cert.Lora.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨hx, hA, hB⟩ := Cert.Lora.reals_of_pre _ _ _ _ (hpre c)
  rw [Cert.ReferenceIdeal.Read.val_main_v9_eq, (hagree c).1, (hagree c).2.1, (hagree c).2.2.1, (hagree c).2.2.2]
  exact (Cert.Lora.reference_eq _ _ _ _).trans (Cert.Lora.kernelOut_eq_referenceOut _ _ _ _ hx hA hB).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
